-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S51200x128 : Shape := ⟨2, ![51200, 128]⟩
abbrev S2048x128 : Shape := ⟨2, ![2048, 128]⟩
abbrev S850000x128 : Shape := ⟨2, ![850000, 128]⟩
abbrev S1x128 : Shape := ⟨2, ![1, 128]⟩

abbrev nBuf : Space → Nat
  | .hbm => 90
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S850000, .i32⟩
  | .hbm, ⟨22, _⟩ => ⟨S850000, .i1⟩
  | .hbm, ⟨23, _⟩ => ⟨S_, .i32⟩
  | .hbm, ⟨24, _⟩ => ⟨S850000, .i32⟩
  | .hbm, ⟨25, _⟩ => ⟨S850000, .i32⟩
  | .hbm, ⟨26, _⟩ => ⟨S850000, .i32⟩
  | .hbm, ⟨27, _⟩ => ⟨S850000x1, .i32⟩
  | .hbm, ⟨28, _⟩ => ⟨S850000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S_, .i32⟩
  | .hbm, ⟨40, _⟩ => ⟨S_, .f32⟩
  | .hbm, ⟨41, _⟩ => ⟨S51200x128, .f32⟩
  | .hbm, ⟨42, _⟩ => ⟨S51200x128, .f32⟩
  | .hbm, ⟨43, _⟩ => ⟨S50000x128, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000x128, .f32⟩
  | .hbm, ⟨53, _⟩ => ⟨S850000x1, .f32⟩
  | .hbm, ⟨54, _⟩ => ⟨S850000x128, .f32⟩
  | .hbm, ⟨55, _⟩ => ⟨S850000x128, .f32⟩
  | .hbm, ⟨56, _⟩ => ⟨S_, .f32⟩
  | .hbm, ⟨57, _⟩ => ⟨S50000x128, .f32⟩
  | .hbm, ⟨58, _⟩ => ⟨S850000x1, .i32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S_, .i32⟩
  | .hbm, ⟨67, _⟩ => ⟨S_, .f32⟩
  | .hbm, ⟨68, _⟩ => ⟨S51200x128, .f32⟩
  | .hbm, ⟨69, _⟩ => ⟨S51200x128, .f32⟩
  | .hbm, ⟨70, _⟩ => ⟨S50000x128, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x128, .f32⟩
  | .hbm, ⟨80, _⟩ => ⟨S850000x1, .f32⟩
  | .hbm, ⟨81, _⟩ => ⟨S850000x128, .f32⟩
  | .hbm, ⟨82, _⟩ => ⟨S850000x128, .f32⟩
  | .hbm, ⟨83, _⟩ => ⟨S_, .f32⟩
  | .hbm, ⟨84, _⟩ => ⟨S50000x128, .f32⟩
  | .hbm, ⟨85, _⟩ => ⟨S850000x1, .i32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S128x128, .f32⟩
  | .local _ .vmem, ⟨8, _⟩ => ⟨S2048x128, .f32⟩
  | .local _ .vmem, ⟨9, _⟩ => ⟨S2048x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_call0_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_call1_cst : Ref sig .tc := ⟨.hbm, 63, rfl⟩
abbrev main_call1_v0 : Ref sig .tc := ⟨.hbm, 64, rfl⟩
abbrev main_v46 : Ref sig .tc := ⟨.hbm, 65, rfl⟩
abbrev main_c_8 : Ref sig .tc := ⟨.hbm, 66, rfl⟩
abbrev main_call2_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  pads_S50000x128_S51200x128_012000_000 : S50000x128.Pads (![0, 0] : Fin 2 → Nat) ![1200, 0] ![0, 0] S51200x128
  h_S_ : 0 < S_.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S51200x128_S50000x128_0_0 : S51200x128.Slices ![0, 0] S50000x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2048x128_S128x128_S2048x128_1_0_0_1_n_n_wf : DotDims.WF S2048x128 S128x128 S2048x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S51200x128.size a
  hwx0_0 : ∀ i : grid0.Coords, EltTy.bits .f32 = 32 ∨ (Rect.block (s := S51200x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S51200x128.size a
  hwx0_2 : ∀ i : grid0.Coords, EltTy.bits .f32 = 32 ∨ (Rect.block (s := S51200x128) S2048x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S51200x128.size a
  hwx1_0 : ∀ i : grid1.Coords, EltTy.bits .f32 = 32 ∨ (Rect.block (s := S51200x128) S2048x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S51200x128.size a
  hwx1_2 : ∀ i : grid1.Coords, EltTy.bits .f32 = 32 ∨ (Rect.block (s := S51200x128) S2048x128.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_v27) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2048x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 82
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S850000, .i32⟩
  | .hbm, ⟨22, _⟩ => ⟨S850000, .i1⟩
  | .hbm, ⟨23, _⟩ => ⟨S_, .i32⟩
  | .hbm, ⟨24, _⟩ => ⟨S850000, .i32⟩
  | .hbm, ⟨25, _⟩ => ⟨S850000, .i32⟩
  | .hbm, ⟨26, _⟩ => ⟨S850000, .i32⟩
  | .hbm, ⟨27, _⟩ => ⟨S850000x1, .i32⟩
  | .hbm, ⟨28, _⟩ => ⟨S850000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S50000x128, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000x128, .f32⟩
  | .hbm, ⟨49, _⟩ => ⟨S850000x1, .f32⟩
  | .hbm, ⟨50, _⟩ => ⟨S850000x128, .f32⟩
  | .hbm, ⟨51, _⟩ => ⟨S850000x128, .f32⟩
  | .hbm, ⟨52, _⟩ => ⟨S_, .f32⟩
  | .hbm, ⟨53, _⟩ => ⟨S50000x128, .f32⟩
  | .hbm, ⟨54, _⟩ => ⟨S850000x1, .i32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S_, .i32⟩
  | .hbm, ⟨64, _⟩ => ⟨S850000, .i32⟩
  | .hbm, ⟨65, _⟩ => ⟨S850000, .i1⟩
  | .hbm, ⟨66, _⟩ => ⟨S_, .i32⟩
  | .hbm, ⟨67, _⟩ => ⟨S850000, .i32⟩
  | .hbm, ⟨68, _⟩ => ⟨S850000, .i32⟩
  | .hbm, ⟨69, _⟩ => ⟨S850000, .i32⟩
  | .hbm, ⟨70, _⟩ => ⟨S850000x1, .i32⟩
  | .hbm, ⟨71, _⟩ => ⟨S850000x128, .f32⟩
  | .hbm, ⟨72, _⟩ => ⟨S850000x1, .f32⟩
  | .hbm, ⟨73, _⟩ => ⟨S850000x128, .f32⟩
  | .hbm, ⟨74, _⟩ => ⟨S850000x128, .f32⟩
  | .hbm, ⟨75, _⟩ => ⟨S_, .f32⟩
  | .hbm, ⟨76, _⟩ => ⟨S50000x128, .f32⟩
  | .hbm, ⟨77, _⟩ => ⟨S850000x1, .i32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The idealized kernel's run with its result named. @main is nine segments: host operations, the first matmul
  region, host operations, the second matmul region, host operations. The buffer contents at each boundary are a
  fold through those segments from the launch memory; the last boundary's contents are `Gen.W9`. Every weakly
  fair execution terminates, the result buffer ends at `Gen.W9` read at that buffer, and the six argument arrays
  end as launched.
-/
import proofs.«145094_j47777216200968_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with the result buffer read: the result ends at the last boundary's contents, the arguments as
    launched. The result's buffer lives outside every region's scope, so the last thread state holds it whole, at the
    last boundary's contents, beside the arguments. -/
theorem run_value : θ_run defs (onTc (τ := τ) (main (F := F))) ⟨m, fun _ => 0, ρ⟩ (fun r => ∀ c : Dev nD,
      r.2.mem ((c.tc : Thread nD τ).loc main_v65) = W9 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?launch)
    (T₀ := fun c => iprop(StableHlo.held (c : Thread nD τ) (Pipeline.ucRefs τ sig) (W0 m ρ c) ∗ R c)) (Tₙ := Tₙ m ρ)
    (hch := ?chain) (hinit := ?first)
    (QY := fun c s => ∀ b ∈ Pipeline.ucRefs τ sig, s.mem (((c : Thread nD τ)).1, b) = W9 m ρ c b)
    (hfin := ?last) (hQ := ?read)
  case launch =>
    -- the launch element is the staging cells' own; no core holds a ghost resource besides
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case chain =>
    -- each segment is entered from the contents the one before it leaves: the boundaries' names agree
    refine ⟨fun _ => .rfl, fun _ => .rfl, fun _ => .rfl, fun _ => .rfl, fun _ => .rfl, fun _ => .rfl, fun _ => .rfl,
      fun _ => .rfl, fun _ => .rfl, fun c => ?_⟩
    dsimp only [Pipeline.Seg.post, hseg, Pipeline.HostSeg.ofOps]
    iintro ⟨Hh, Hp, HO⟩
    isplitl [Hh Hp]
    · isplitl [Hh]; · iexact Hh
      iexact Hp
    iexact HO
  case first =>
    -- at launch every unscoped buffer holds the launch memory, the generator register its launch state, nothing is owed
    refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]; · iexact Hh
    isplitl [Hp]; · iexists _; iexact Hp
    iexists ∅; iexact HO
  case last =>
    -- the last thread state holds every unscoped buffer at the last boundary's contents: read them off the final memory
    intro c s'
    iintro ⟨⟨Hh, -⟩, HSI⟩
    unfold StableHlo.held
    imodintro
    iapply (pointsTo_read_all (Pipeline.ucRefs τ sig) (fun b => (((c : Thread nD τ)).1, b)) (W9 m ρ c) s')
    isplitl [Hh] <;> iassumption
  case read =>
    -- the result buffer and the arguments are unscoped; the arguments' contents walk back to the launch memory
    intro s h c
    exact ⟨h c _ (mem_uc main_v65 (by decide)),
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c)⟩

end Cert.KernelIdeal.RunValue

end
-- ==== Proof.PaddedProduct.lean ====
/-
  The product the two matmul regions compute, as one function of whole arrays. For a matrix `A` of 51200 rows and
  128 columns and a square matrix `W` of order 128, entry `(r, j)` of the product is the sum over `k` of
  `A (r, k) * W (k, j)` on the extended reals. Row `r` of the product depends on row `r` of `A` alone: that is why
  rows appended to `A` below row 50000 do not change the first 50000 rows of the product.
-/
import Idealize.ShloMosaic.PureOps.Ideal
import Idealize.ShloMosaic.Lib.ValueIdx

noncomputable section

open scoped BigOperators

namespace Cert.PaddedProduct

open Idealize.ShloMosaic Idealize.ShloMosaic.ValueIdx

/-- Entry `(r, j)` of `A ⬝ W`: the sum over the shared axis of `A (r, k) * W (k, j)`. -/
def product (A : (⟨2, ![51200, 128]⟩ : Shape).Idx → EReal) (W : (⟨2, ![128, 128]⟩ : Shape).Idx → EReal) :
    (⟨2, ![51200, 128]⟩ : Shape).Idx → EReal :=
  fun i => ∑ k : Fin 128, A (ix2 (n0 := 51200) (n1 := 128) (i 0) k) * W (ix2 (n0 := 128) (n1 := 128) k (i 1))

/-- The product read at an entry given by its coordinates. -/
theorem product_apply (A : (⟨2, ![51200, 128]⟩ : Shape).Idx → EReal) (W : (⟨2, ![128, 128]⟩ : Shape).Idx → EReal)
    (r : Fin 51200) (j : Fin 128) :
    product A W (ix2 r j) = ∑ k : Fin 128, A (ix2 r k) * W (ix2 k j) := rfl

end Cert.PaddedProduct

end
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.RowsOfPaddedProduct.lean ====
/-
  The first 50000 rows of a padded product are the product. Let `A` be a matrix of 50000 rows and 128 columns,
  `W` square of order 128. Append 1200 rows of any one value below `A`, multiply by `W` entry by entry as
  `Σ_k A'(r, k) · W(k, j)`, and keep rows 0 … 49999: entry `(r, j)` of what is kept reads row `r` of the padded
  matrix, which for `r < 50000` is row `r` of `A`. So it is `Σ_k A(r, k) · W(k, j)`, the host's contraction of `A`'s
  columns with `W`'s rows on the extended reals. No entry of the appended rows is read, and nothing is assumed
  finite: the two sides are the same finite sum of the same products.
-/
import proofs.«145094_j47777216200968_1_alg».proof.Proof.Gen.KernelIdeal
import proofs.«145094_j47777216200968_1_alg».proof.Proof.Gen.ReferenceIdeal
import proofs.«145094_j47777216200968_1_alg».proof.Proof.PaddedProduct
import proofs.«145094_j47777216200968_1_alg».proof.Proof.LibPlainDot
import Idealize.ShloMosaic.Lib.KernelVsHost
import Idealize.ShloMosaic.Lib.Pipeline.Value
import Idealize.ShloMosaic.Lib.ValueIdx

noncomputable section

open scoped BigOperators

namespace Cert.RowsOfPaddedProduct

open Idealize.ShloMosaic Idealize.ShloMosaic.ValueIdx Cert.PaddedProduct

/-- Rows 0 … 49999 of `(A padded below to 51200 rows) ⬝ W` are `A ⬝ W` as the host contracts it. -/
theorem slice_product_pad
    (A : (⟨Cert.KernelIdeal.S50000x128, .f32⟩ : BufTy).Contents (Elt Ideal))
    (z : (⟨Cert.KernelIdeal.S_, .f32⟩ : BufTy).Contents (Elt Ideal))
    (W : (⟨Cert.KernelIdeal.S128x128, .f32⟩ : BufTy).Contents (Elt Ideal)) :
    extractStridedSlice Cert.KernelIdeal.S50000x128 ![0, 0]
        (product (pad Cert.KernelIdeal.S51200x128 ![0, 0] ![1200, 0] ![0, 0] A z
          Cert.KernelIdeal.Facts₀.pads_S50000x128_S51200x128_012000_000 Cert.KernelIdeal.Facts₀.h_S_) W)
        Cert.KernelIdeal.Facts₀.slices_S51200x128_S50000x128_0_0
      = Host.dotGeneral (F := Ideal) (φ₁ := .f32) (φ₂ := .f32) Cert.ReferenceIdeal.dot_S50000x128_S128x128_S50000x128_1_0_0_1_n_n none A W := by
  funext i
  obtain ⟨r, j, rfl⟩ : ∃ (r : Fin 50000) (j : Fin 128), i = ix2 r j := ⟨i 0, i 1, eq_ix2 i⟩
  have hr : r.val < 51200 := by have := r.isLt; omega
  -- the kept entry (r, j) is the padded product's entry (r, j)
  rw [extractStridedSlice_apply ![0, 0] _ Cert.KernelIdeal.Facts₀.slices_S51200x128_S50000x128_0_0 (ix2 r j)
    (ix2 (n0 := 51200) (n1 := 128) ⟨r.val, hr⟩ j) (fun a => match a with
      | ⟨0, _⟩ => by show r.val = 0 + r.val; omega
      | ⟨1, _⟩ => by show j.val = 0 + j.val; omega)]
  rw [product_apply]
  -- row r of the padded matrix is row r of A
  have hrow : ∀ k : Fin 128,
      pad Cert.KernelIdeal.S51200x128 ![0, 0] ![1200, 0] ![0, 0] A z
          Cert.KernelIdeal.Facts₀.pads_S50000x128_S51200x128_012000_000 Cert.KernelIdeal.Facts₀.h_S_
          (ix2 (n0 := 51200) (n1 := 128) ⟨r.val, hr⟩ k) = A (ix2 r k) := fun k =>
    pad_apply_of_inside ![0, 0] ![1200, 0] ![0, 0] A z Cert.KernelIdeal.Facts₀.pads_S50000x128_S51200x128_012000_000
      Cert.KernelIdeal.Facts₀.h_S_ (ix2 (n0 := 51200) (n1 := 128) ⟨r.val, hr⟩ k) (ix2 r k) (fun a => match a with
        | ⟨0, _⟩ => by show r.val = 0 + r.val * (0 + 1); omega
        | ⟨1, _⟩ => by show k.val = 0 + k.val * (0 + 1); omega)
  simp only [hrow]
  -- the host's contraction at (r, j) is the same sum
  simp only [Host.dotGeneral]
  exact (Cert.Lib.PlainDot.dotGeneral_plain_apply (M := 50000) (K := 128) (N := 128) (φ₁ := .f32) (φ₂ := .f32) none _ A W r j).symm

end Cert.RowsOfPaddedProduct

end
-- ==== Proof.KernelFold.lean ====
/-
  The idealized kernel's result as a function of its arguments. @main's buffer contents are followed boundary by
  boundary: the edge lists with self-loops and the edge weights (from the edge index alone); the features padded
  below to 51200 rows; the first matmul region, which leaves the padded product; the first layer's aggregation,
  bias and rectifier; the padding again; the second region; the second layer's aggregation and bias. At each
  boundary a buffer that the stretch just run does not write holds what it held before. The two regions enter
  through their arrays after the run (`hreg0`, `hreg1`: each output array is the product of the region's two
  input arrays), and the first 50000 rows of a padded product are the host's product of the unpadded matrix. What
  comes out is, stage by stage, the reference's own chain of operations on the same arguments.
-/
import proofs.«145094_j47777216200968_1_alg».proof.Proof.Gen.KernelIdeal.Frame
import proofs.«145094_j47777216200968_1_alg».proof.Proof.Gen.ReferenceIdeal.Read
import proofs.«145094_j47777216200968_1_alg».proof.Proof.PaddedProduct
import proofs.«145094_j47777216200968_1_alg».proof.Proof.RowsOfPaddedProduct

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo
open Cert.PaddedProduct (product)
open Cert.ReferenceIdeal.Read (val_main_v3 val_main_v6 val_main_v26 val_main_v43 val_main_v44 val_main_v61)

variable (m : (ℓ : Loc nD τ sig) → Buf (Elt Ideal) ℓ) (ρ : Dev nD → PrngReg) (c : Dev nD)

/-! ## Buffers a stretch of host operations leaves alone -/

/-- A stretch none of whose operations writes `b` keeps `b`'s contents. -/
theorem unw {ops : List (HloOp τ sig (Elt Ideal))} {V : Valuation τ sig (Elt Ideal)} {b : Ref sig .tc}
    (h : ∀ op ∈ ops, Proc.devRef .tc b ∉ op.writes) :
    StableHlo.after ops V (Proc.devRef .tc b) = V (Proc.devRef .tc b) :=
  StableHlo.after_of_forall_not_mem _ _ h

/-- No operation of the stretch writes the buffer: each operation writes one buffer, another one. -/
macro "nowrites" : tactic => `(tactic| (
  refine List.forall_iff_forall_mem.mp ?_
  simp only [hostOps0, hostOps0_1, hostOps1, hostOps1_1, hostOps1_2, hostOps1_3, hostOps2, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- From the first boundary to the first region's exit: a buffer that the padding does not write and that is
    none of the region's arrays. -/
theorem kept_to_W3 (b : Ref sig .tc) (hne : ∀ w, Pipeline.arrRef spec0 w ≠ b)
    (h : ∀ op ∈ (hostOps0_1 : List (HloOp τ sig (Elt Ideal))), Proc.devRef .tc b ∉ op.writes) :
    W3 m ρ c (Proc.devRef .tc b) = W1 m ρ c (Proc.devRef .tc b) :=
  (W3_of_ne m ρ c b hne).trans (unw h)

/-- From the first region's exit to the second region's entry. -/
theorem kept_to_W7 (b : Ref sig .tc)
    (h1 : ∀ op ∈ (hostOps1 : List (HloOp τ sig (Elt Ideal))), Proc.devRef .tc b ∉ op.writes)
    (h2 : ∀ op ∈ (hostOps1_1 : List (HloOp τ sig (Elt Ideal))), Proc.devRef .tc b ∉ op.writes)
    (h3 : ∀ op ∈ (hostOps1_2 : List (HloOp τ sig (Elt Ideal))), Proc.devRef .tc b ∉ op.writes)
    (h4 : ∀ op ∈ (hostOps1_3 : List (HloOp τ sig (Elt Ideal))), Proc.devRef .tc b ∉ op.writes) :
    W7 m ρ c (Proc.devRef .tc b) = W3 m ρ c (Proc.devRef .tc b) :=
  (unw h4).trans ((unw h3).trans ((unw h2).trans (unw h1)))

/-- From the second region's entry to its exit: a buffer that is none of its arrays. -/
theorem kept_to_W8 (b : Ref sig .tc) (hne : ∀ w, Pipeline.arrRef spec1 w ≠ b) :
    W8 m ρ c (Proc.devRef .tc b) = W7 m ρ c (Proc.devRef .tc b) :=
  W8_of_ne m ρ c b hne

/-! ## The two called bodies after the first region, from any contents -/

/-- The rectifier's three operations from any contents: the maximum with zero of the buffer it is applied to. -/
theorem relu_stretch (V : Valuation τ sig (Elt Ideal)) :
    StableHlo.after hostOps1_1 V (Proc.devRef .tc main_v46)
      = maximumf (F := Ideal) (φ := .f32) (s := S50000x128) (V (Proc.devRef .tc main_v45))
          (broadcastInDim S50000x128 ![] Facts₀.bcast_S_S50000x128 (constant (F := Ideal) S_ .f32 0x00000000#32)) := by
  dsimp only [hostOps1_1]
  after_results_simp
  rfl

/-- The second padding's two operations from any contents: 1200 rows of the converted integer appended. -/
theorem pad_stretch (V : Valuation τ sig (Elt Ideal)) :
    StableHlo.after hostOps1_3 V (Proc.devRef .tc main_v47)
      = pad S51200x128 ![0, 0] ![1200, 0] ![0, 0] (V (Proc.devRef .tc main_v46))
          (sitofp (F := Ideal) .f32 (V (Proc.devRef .tc main_c_8))) Facts₀.pads_S50000x128_S51200x128_012000_000 Facts₀.h_S_ := by
  dsimp only [hostOps1_3]
  after_results_simp
  rfl

/-! ## After the operations before the first padding -/

theorem W1_arg2 : W1 m ρ c (Proc.devRef .tc main_arg2) = m ((c : Thread nD τ).loc main_arg2) :=
  (unw (ops := hostOps0) (V := W0 m ρ c) (by nowrites)).trans rfl
theorem W1_arg3 : W1 m ρ c (Proc.devRef .tc main_arg3) = m ((c : Thread nD τ).loc main_arg3) :=
  (unw (ops := hostOps0) (V := W0 m ρ c) (by nowrites)).trans rfl
theorem W1_arg4 : W1 m ρ c (Proc.devRef .tc main_arg4) = m ((c : Thread nD τ).loc main_arg4) :=
  (unw (ops := hostOps0) (V := W0 m ρ c) (by nowrites)).trans rfl
theorem W1_arg5 : W1 m ρ c (Proc.devRef .tc main_arg5) = m ((c : Thread nD τ).loc main_arg5) :=
  (unw (ops := hostOps0) (V := W0 m ρ c) (by nowrites)).trans rfl

/-- The source list with self-loops appended: the reference's. -/
theorem W1_src : W1 m ρ c (Proc.devRef .tc main_v3) = val_main_v3 (F := Ideal) (m ((c : Thread nD τ).loc main_arg1)) := by
  show StableHlo.after hostOps0 (W0 m ρ c) (Proc.devRef .tc main_v3) = _
  dsimp only [hostOps0]
  after_results_simp
  rfl

/-- The destination list with self-loops appended: the reference's. -/
theorem W1_dst : W1 m ρ c (Proc.devRef .tc main_v6) = val_main_v6 (F := Ideal) (m ((c : Thread nD τ).loc main_arg1)) := by
  show StableHlo.after hostOps0 (W0 m ρ c) (Proc.devRef .tc main_v6) = _
  dsimp only [hostOps0]
  after_results_simp
  rfl

/-- The edge weights (the product of the two end nodes' inverse square-root degrees): the reference's. -/
theorem W1_norm : W1 m ρ c (Proc.devRef .tc main_v26) = val_main_v26 (F := Ideal) (m ((c : Thread nD τ).loc main_arg1)) := by
  show StableHlo.after hostOps0 (W0 m ρ c) (Proc.devRef .tc main_v26) = _
  dsimp only [hostOps0]
  after_results_simp
  rfl

/-! ## The first layer -/

/-- The padding value: the integer zero converted. -/
abbrev padValue : (⟨S_, .f32⟩ : BufTy).Contents (Elt Ideal) := sitofp (F := Ideal) .f32 (constantI S_ 32 0#32)

/-- A feature matrix with 1200 rows of the padding value appended. -/
abbrev padded (A : (⟨S50000x128, .f32⟩ : BufTy).Contents (Elt Ideal)) : (⟨S51200x128, .f32⟩ : BufTy).Contents (Elt Ideal) :=
  pad S51200x128 ![0, 0] ![1200, 0] ![0, 0] A padValue Facts₀.pads_S50000x128_S51200x128_012000_000 Facts₀.h_S_

/-- The first region's first array at its entry: the features, padded. -/
theorem W2_padded : W2 m ρ c (Proc.devRef .tc main_v27) = padded (m ((c : Thread nD τ).loc main_arg0)) := by
  show StableHlo.after hostOps0_1 (W1 m ρ c) (Proc.devRef .tc main_v27) = _
  dsimp only [hostOps0_1]
  after_results_simp
  rfl

theorem W2_arg2 : W2 m ρ c (Proc.devRef .tc main_arg2) = m ((c : Thread nD τ).loc main_arg2) :=
  (unw (ops := hostOps0_1) (V := W1 m ρ c) (by nowrites)).trans (W1_arg2 m ρ c)

variable (hreg0 : ∀ (V : (c : Dev nD) → (b : Ref sig .tc) → Buf (Elt Ideal) ((c : Thread nD τ).loc b)) (c : Dev nD),
    (dat0 (F := Ideal) V c).arrAt 2 cfg0.N = product (V c main_v27) (V c main_arg2))
variable (hreg1 : ∀ (V : (c : Dev nD) → (b : Ref sig .tc) → Buf (Elt Ideal) ((c : Thread nD τ).loc b)) (c : Dev nD),
    (dat1 (F := Ideal) V c).arrAt 2 cfg1.N = product (V c main_v47) (V c main_arg4))

include hreg0 in
/-- The first region leaves the product of the padded features with the first weight matrix. -/
theorem W3_product : W3 m ρ c (Proc.devRef .tc main_v28)
    = product (padded (m ((c : Thread nD τ).loc main_arg0))) (m ((c : Thread nD τ).loc main_arg2)) := by
  refine (W3_arr m ρ c 2).trans ((hreg0 (V2 m ρ) c).trans ?_)
  show product (W2 m ρ c (Proc.devRef .tc main_v27)) (W2 m ρ c (Proc.devRef .tc main_arg2)) = _
  rw [W2_padded, W2_arg2]

theorem W3_src : W3 m ρ c (Proc.devRef .tc main_v3) = val_main_v3 (F := Ideal) (m ((c : Thread nD τ).loc main_arg1)) :=
  (kept_to_W3 m ρ c main_v3 (by decide) (by nowrites)).trans (W1_src m ρ c)
theorem W3_dst : W3 m ρ c (Proc.devRef .tc main_v6) = val_main_v6 (F := Ideal) (m ((c : Thread nD τ).loc main_arg1)) :=
  (kept_to_W3 m ρ c main_v6 (by decide) (by nowrites)).trans (W1_dst m ρ c)
theorem W3_norm : W3 m ρ c (Proc.devRef .tc main_v26) = val_main_v26 (F := Ideal) (m ((c : Thread nD τ).loc main_arg1)) :=
  (kept_to_W3 m ρ c main_v26 (by decide) (by nowrites)).trans (W1_norm m ρ c)
theorem W3_arg3 : W3 m ρ c (Proc.devRef .tc main_arg3) = m ((c : Thread nD τ).loc main_arg3) :=
  (kept_to_W3 m ρ c main_arg3 (by decide) (by nowrites)).trans (W1_arg3 m ρ c)
theorem W3_arg4 : W3 m ρ c (Proc.devRef .tc main_arg4) = m ((c : Thread nD τ).loc main_arg4) :=
  (kept_to_W3 m ρ c main_arg4 (by decide) (by nowrites)).trans (W1_arg4 m ρ c)
theorem W3_arg5 : W3 m ρ c (Proc.devRef .tc main_arg5) = m ((c : Thread nD τ).loc main_arg5) :=
  (kept_to_W3 m ρ c main_arg5 (by decide) (by nowrites)).trans (W1_arg5 m ρ c)

include hreg0 in
/-- The first layer before the rectifier: the first 50000 rows of the region's product are the host's product of
    the features with the weights, and the gather at the sources, the weighting, the sums at the destinations and
    the bias after it are the reference's. -/
theorem W4_layer1 : W4 m ρ c (Proc.devRef .tc main_v45)
    = val_main_v43 (F := Ideal) (m ((c : Thread nD τ).loc main_arg0)) (m ((c : Thread nD τ).loc main_arg1))
        (m ((c : Thread nD τ).loc main_arg2)) (m ((c : Thread nD τ).loc main_arg3)) := by
  show StableHlo.after hostOps1 (W3 m ρ c) (Proc.devRef .tc main_v45) = _
  dsimp only [hostOps1]
  after_results_simp
  rw [W3_product m ρ c hreg0, W3_src, W3_dst, W3_norm, W3_arg3, Cert.RowsOfPaddedProduct.slice_product_pad]
  rfl

include hreg0 in
/-- The hidden features: the rectifier of the first layer. -/
theorem W5_hidden : W5 m ρ c (Proc.devRef .tc main_v46)
    = val_main_v44 (F := Ideal) (m ((c : Thread nD τ).loc main_arg0)) (m ((c : Thread nD τ).loc main_arg1))
        (m ((c : Thread nD τ).loc main_arg2)) (m ((c : Thread nD τ).loc main_arg3)) := by
  refine (relu_stretch (W4 m ρ c)).trans ?_
  rw [W4_layer1 m ρ c hreg0]
  rfl

/-! ## The second layer -/

include hreg0 in
theorem W6_hidden : W6 m ρ c (Proc.devRef .tc main_v46)
    = val_main_v44 (F := Ideal) (m ((c : Thread nD τ).loc main_arg0)) (m ((c : Thread nD τ).loc main_arg1))
        (m ((c : Thread nD τ).loc main_arg2)) (m ((c : Thread nD τ).loc main_arg3)) :=
  (unw (ops := hostOps1_2) (V := W5 m ρ c) (by nowrites)).trans (W5_hidden m ρ c hreg0)

/-- The integer zero that the second padding converts to its padding value. -/
theorem W6_zero : W6 m ρ c (Proc.devRef .tc main_c_8) = constantI S_ 32 0#32 := by
  show StableHlo.after hostOps1_2 (W5 m ρ c) (Proc.devRef .tc main_c_8) = _
  generalize W5 m ρ c = V
  dsimp only [hostOps1_2]
  after_results_simp

include hreg0 in
/-- The second region's first array at its entry: the hidden features, padded. -/
theorem W7_padded : W7 m ρ c (Proc.devRef .tc main_v47)
    = padded (val_main_v44 (F := Ideal) (m ((c : Thread nD τ).loc main_arg0)) (m ((c : Thread nD τ).loc main_arg1))
        (m ((c : Thread nD τ).loc main_arg2)) (m ((c : Thread nD τ).loc main_arg3))) := by
  refine (pad_stretch (W6 m ρ c)).trans ?_
  rw [W6_hidden m ρ c hreg0, W6_zero]

theorem W7_arg4 : W7 m ρ c (Proc.devRef .tc main_arg4) = m ((c : Thread nD τ).loc main_arg4) :=
  (kept_to_W7 m ρ c main_arg4 (by nowrites) (by nowrites) (by nowrites) (by nowrites)).trans (W3_arg4 m ρ c)

include hreg0 hreg1 in
/-- The second region leaves the product of the padded hidden features with the second weight matrix. -/
theorem W8_product : W8 m ρ c (Proc.devRef .tc main_v48)
    = product (padded (val_main_v44 (F := Ideal) (m ((c : Thread nD τ).loc main_arg0)) (m ((c : Thread nD τ).loc main_arg1))
        (m ((c : Thread nD τ).loc main_arg2)) (m ((c : Thread nD τ).loc main_arg3)))) (m ((c : Thread nD τ).loc main_arg4)) := by
  refine (W8_arr m ρ c 2).trans ((hreg1 (V7 m ρ) c).trans ?_)
  show product (W7 m ρ c (Proc.devRef .tc main_v47)) (W7 m ρ c (Proc.devRef .tc main_arg4)) = _
  rw [W7_padded m ρ c hreg0, W7_arg4]

theorem W8_src : W8 m ρ c (Proc.devRef .tc main_v3) = val_main_v3 (F := Ideal) (m ((c : Thread nD τ).loc main_arg1)) :=
  (kept_to_W8 m ρ c main_v3 (by decide)).trans
    ((kept_to_W7 m ρ c main_v3 (by nowrites) (by nowrites) (by nowrites) (by nowrites)).trans (W3_src m ρ c))
theorem W8_dst : W8 m ρ c (Proc.devRef .tc main_v6) = val_main_v6 (F := Ideal) (m ((c : Thread nD τ).loc main_arg1)) :=
  (kept_to_W8 m ρ c main_v6 (by decide)).trans
    ((kept_to_W7 m ρ c main_v6 (by nowrites) (by nowrites) (by nowrites) (by nowrites)).trans (W3_dst m ρ c))
theorem W8_norm : W8 m ρ c (Proc.devRef .tc main_v26) = val_main_v26 (F := Ideal) (m ((c : Thread nD τ).loc main_arg1)) :=
  (kept_to_W8 m ρ c main_v26 (by decide)).trans
    ((kept_to_W7 m ρ c main_v26 (by nowrites) (by nowrites) (by nowrites) (by nowrites)).trans (W3_norm m ρ c))
theorem W8_arg5 : W8 m ρ c (Proc.devRef .tc main_arg5) = m ((c : Thread nD τ).loc main_arg5) :=
  (kept_to_W8 m ρ c main_arg5 (by decide)).trans
    ((kept_to_W7 m ρ c main_arg5 (by nowrites) (by nowrites) (by nowrites) (by nowrites)).trans (W3_arg5 m ρ c))

include hreg0 hreg1 in
/-- The result: the second layer on the hidden features, which is the reference's last stage on the arguments. -/
theorem W9_result : W9 m ρ c (Proc.devRef .tc main_v65)
    = val_main_v61 (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  show StableHlo.after hostOps2 (W8 m ρ c) (Proc.devRef .tc main_v65) = _
  dsimp only [hostOps2]
  after_results_simp
  rw [W8_product m ρ c hreg0 hreg1, W8_src, W8_dst, W8_norm, W8_arg5, Cert.RowsOfPaddedProduct.slice_product_pad]
  rfl

end Cert.KernelIdeal.Fold

end
-- ==== Proof.RegionValue.lean ====
/-
  The value of each of the two matmul regions, as one function of whole arrays. A region walks 25 points; point `t`
  reads rows `2048 t … 2048 t + 2047` of a left array `A` of 51200 rows and 128 columns, reads the whole square
  array `W` of order 128, and stores the matrix product of the two blocks, accumulated from zero, as the same rows of
  the result array. On the extended reals rounding the operands to a narrower float format changes nothing, so the
  stored entry `(p, q)` is `∑ k, A (2048 t + p, k) * W (k, q)`: row `2048 t + p` of `A ⬝ W`. The 25 row blocks tile
  the 51200 rows, hence after the last point the result array is `A ⬝ W` at every index
  (`region0_array`, `region1_array`). The two regions are the same computation on different arrays.
-/
import proofs.«145094_j47777216200968_1_alg».proof.Proof.Gen.KernelIdeal.Frame
import proofs.«145094_j47777216200968_1_alg».proof.Proof.PaddedProduct
import proofs.«145094_j47777216200968_1_alg».proof.Proof.LibPlainDot
import Idealize.ShloMosaic.Lib.Pipeline.Value

noncomputable section
open scoped BigOperators
namespace Cert.KernelIdeal.RegionValue
open Cert.KernelIdeal Cert.KernelIdeal.Gen Idealize.ShloMosaic Idealize.ShloMosaic.TcCoe Idealize.SL.Sem
open Idealize.ShloMosaic.ValueIdx

/-- The offsets of a block read or stored whole are zero on both axes. -/
theorem zero_offsets : (![0, 0] : Fin 2 → Nat) = fun _ => 0 := funext fun a => by fin_cases a <;> rfl

-- the contents of a core's buffers when a region is entered
variable (V : (c : Dev nD) → (b : Ref sig .tc) → Buf (Elt Ideal) ((c : Thread nD τ).loc b))

/-! ## Matmul region 0: the array it leaves is the product of `main_v27` and `main_arg2` -/

/-- The block a point stores, read at an entry. On the extended reals a change of float format is the identity,
    a cast to the same shape is the identity, and the accumulator starts at zero, so entry `(p, q)` of the stored
    block is the sum over `k` of `x0 (p, k) * x1 (k, q)`. -/
theorem pay0_apply (x0 : Vec Ideal S2048x128 .f32) (x1 : Vec Ideal S128x128 .f32) (p : Fin 2048) (q : Fin 128) :
    Gen.k0_pay1 x0 x1 (ix2 p q) = ∑ k : Fin 128, x0 (ix2 p k) * x1 (ix2 k q) := by
  unfold Gen.k0_pay1
  exact (congrArg (fun v : FVec Ideal S2048x128 .f32 => FloatOps.matmul (F := Ideal) (DotDims.plain 2048 128 128) none (φ₁ := .bf16) (φ₂ := .bf16) v x1 (constant S2048x128 .f32 0x00000000#32) (ix2 p q))
      (shapeCast_self x0 shapeCasts_S2048x128_S2048x128)).trans
    (Cert.Lib.PlainDot.matmul_plain_zero_apply (φ₁ := .bf16) (φ₂ := .bf16) none x0 x1 p q)

/-- The block indices at point `t` of the 25: the left operand's and the result's row block is block `t`, their
    one column block is block 0, and the right operand's only block is block `(0, 0)` at every point. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `(p, k)` of the left operand's block at point `t` is entry `(2048 t + p, k)` of the left array. -/
theorem rowBlock0_apply (c : Dev nD) (t : Fin cfg0.N) (p : Fin 2048) (k : Fin 128) (i : S51200x128.Idx)
    (hi0 : (i 0).val = t.val * 2048 + p.val) (hi1 : (i 1).val = k.val) :
    (iblk0 V c 0 t : Vec Ideal S2048x128 .f32) (ix2 p k) = (V c main_v27 : S51200x128.Idx → EReal) i := by
  obtain ⟨e0, e1, -, -, -, -⟩ := blockIndex0 t
  unfold iblk0
  rw [View.read_apply]
  show V c main_v27 _ = V c main_v27 _
  refine congrArg _ ?_
  funext a
  apply Fin.ext
  match a with
  | ⟨0, _⟩ => show win0_0.index t (0 : Fin 2) * 2048 + 1 * (p : Nat) = (i 0).val; rw [e0, hi0]; omega
  | ⟨1, _⟩ => show win0_0.index t (1 : Fin 2) * 128 + 1 * (k : Nat) = (i 1).val; rw [e1, hi1]; omega

/-- The right operand's block at every point is the whole right array: entry `(k, q)` is entry `(k, q)`. -/
theorem wholeBlock0_apply (c : Dev nD) (t : Fin cfg0.N) (k : Fin 128) (q : Fin 128) (i : S128x128.Idx)
    (hi0 : (i 0).val = k.val) (hi1 : (i 1).val = q.val) :
    (iblk0 V c 1 t : Vec Ideal S128x128 .f32) (ix2 k q) = (V c main_arg2 : S128x128.Idx → EReal) i := by
  obtain ⟨-, -, e2, e3, -, -⟩ := blockIndex0 t
  unfold iblk0
  rw [View.read_apply]
  show V c main_arg2 _ = V c main_arg2 _
  refine congrArg _ ?_
  funext a
  apply Fin.ext
  match a with
  | ⟨0, _⟩ => show win0_1.index t (0 : Fin 2) * 128 + 1 * (k : Nat) = (i 0).val; rw [e2, hi0]; omega
  | ⟨1, _⟩ => show win0_1.index t (1 : Fin 2) * 128 + 1 * (q : Nat) = (i 1).val; rw [e3, hi1]; omega

/-- What point `t` writes back is rows `2048 t … 2048 t + 2047` of the product: entry `(p, q)` of the stored block is
    `∑ k, A (2048 t + p, k) * W (k, q)`, which is the product's entry at the place `(2048 t + p, q)` the block's
    entry `(p, q)` has in the result array. -/
theorem flushed0_eq (c : Dev nD) (t : Fin cfg0.N) :
    (dat0 (F := Ideal) V c).flushed 2 t
      = ((cfg0.win 2).blk t).view.read (Elt Ideal) (Cert.PaddedProduct.product (V c main_v27) (V c main_arg2)) := by
  show (cfg0.win 2).cut (grid0.coords t) ((dat0 (F := Ideal) V c).after 2 t) = _
  rw [after0_2]
  unfold out0_2
  rw [View.canon_unit_zero zero_offsets]
  simp only [View.ld_unit_zero (S := S2048x128) zero_offsets, View.ld_unit_zero (S := S128x128) zero_offsets]
  obtain ⟨-, -, -, -, e4, e5⟩ := blockIndex0 t
  funext j
  obtain ⟨p, q, rfl⟩ : ∃ (p : Fin 2048) (q : Fin 128), j = ix2 p q := ⟨j 0, j 1, eq_ix2 j⟩
  show k0_pay1 (iblk0 V c 0 t) (iblk0 V c 1 t) (ix2 p q)
    = Cert.PaddedProduct.product (V c main_v27) (V c main_arg2) (((cfg0.win 2).blk t).view.emb (ix2 p q))
  refine (pay0_apply (iblk0 V c 0 t) (iblk0 V c 1 t) p q).trans ?_
  unfold Cert.PaddedProduct.product
  refine Finset.sum_congr rfl fun k _ => ?_
  have h0 : (iblk0 V c 0 t : Vec Ideal S2048x128 .f32) (ix2 p k)
      = (V c main_v27 : S51200x128.Idx → EReal) (ix2 (((cfg0.win 2).blk t).view.emb (ix2 p q) 0) k) :=
    rowBlock0_apply V c t p k _
      (by show win0_2.index t (0 : Fin 2) * 2048 + 1 * (p : Nat) = _; rw [e4]; omega) rfl
  have h1 : (iblk0 V c 1 t : Vec Ideal S128x128 .f32) (ix2 k q)
      = (V c main_arg2 : S128x128.Idx → EReal) (ix2 k (((cfg0.win 2).blk t).view.emb (ix2 p q) 1)) :=
    wholeBlock0_apply V c t k q _ rfl
      (by show win0_2.index t (1 : Fin 2) * 128 + 1 * (q : Nat) = _; rw [e5]; omega)
  rw [h0, h1]

/-- An index of the result array is in point `t`'s block iff each coordinate is in the block's range on its axis. -/
theorem mem_rowBlock0 (t : Fin cfg0.N) (i : S51200x128.Idx) :
    i ∈ ((cfg0.win 2).blk t).view.set ↔ ∀ a : Fin 2, win0_2.index t a * S2048x128.size a ≤ (i a).val
      ∧ (i a).val < win0_2.index t a * S2048x128.size a + S2048x128.size a := by
  show i ∈ ((View.whole main_v28).slice (win0_2.rect t)).set ↔ _
  rw [View.set_slice_whole, Rect.mem_set_unit]
  exact Iff.rfl

/-- The 25 row blocks of 2048 rows tile the 51200 rows: the index `(r, j)` is in the block of point `r / 2048`,
    and every point writes its block back. -/
theorem covered0 (i : S51200x128.Idx) :
    ∃ t : Fin cfg0.N, (cfg0.win 2).flush t = true ∧ i ∈ ((cfg0.win 2).blk t).view.set := by
  have hi0 : (i 0).val < 51200 := (i 0).isLt
  have hi1 : (i 1).val < 128 := (i 1).isLt
  obtain ⟨t, ht⟩ : ∃ t : Fin cfg0.N, t.val = (i 0).val / 2048 :=
    ⟨⟨(i 0).val / 2048, by show (i 0).val / 2048 < grid0.N; rw [N_0]; omega⟩, rfl⟩
  obtain ⟨-, -, -, -, e4, e5⟩ := blockIndex0 t
  refine ⟨t, flush0_2 t, ?_⟩
  rw [mem_rowBlock0]
  intro a
  match a with
  | ⟨0, _⟩ =>
    show win0_2.index t (0 : Fin 2) * 2048 ≤ (i 0).val ∧ (i 0).val < win0_2.index t (0 : Fin 2) * 2048 + 2048
    rw [e4, ht]; omega
  | ⟨1, _⟩ =>
    show win0_2.index t (1 : Fin 2) * 128 ≤ (i 1).val ∧ (i 1).val < win0_2.index t (1 : Fin 2) * 128 + 128
    rw [e5]; omega

/-- After the 25 points the result array of region 0 is the product `main_v27 ⬝ main_arg2`, entry by entry: every point
    writes its rows of the product and the rows of the 25 points are all the rows. -/
theorem region0_array (c : Dev nD) :
    (dat0 (F := Ideal) V c).arrAt 2 cfg0.N = Cert.PaddedProduct.product (V c main_v27) (V c main_arg2) :=
  (dat0 (F := Ideal) V c).arrAt_eq_of_cover 2 (Cert.PaddedProduct.product (V c main_v27) (V c main_arg2))
    (fun t _ => flushed0_eq V c t) covered0

/-! ## Matmul region 1: the array it leaves is the product of `main_v47` and `main_arg4` -/

/-- The block a point stores, read at an entry. On the extended reals a change of float format is the identity,
    a cast to the same shape is the identity, and the accumulator starts at zero, so entry `(p, q)` of the stored
    block is the sum over `k` of `x0 (p, k) * x1 (k, q)`. -/
theorem pay1_apply (x0 : Vec Ideal S2048x128 .f32) (x1 : Vec Ideal S128x128 .f32) (p : Fin 2048) (q : Fin 128) :
    Gen.k1_pay1 x0 x1 (ix2 p q) = ∑ k : Fin 128, x0 (ix2 p k) * x1 (ix2 k q) := by
  unfold Gen.k1_pay1
  exact (congrArg (fun v : FVec Ideal S2048x128 .f32 => FloatOps.matmul (F := Ideal) (DotDims.plain 2048 128 128) none (φ₁ := .bf16) (φ₂ := .bf16) v x1 (constant S2048x128 .f32 0x00000000#32) (ix2 p q))
      (shapeCast_self x0 shapeCasts_S2048x128_S2048x128)).trans
    (Cert.Lib.PlainDot.matmul_plain_zero_apply (φ₁ := .bf16) (φ₂ := .bf16) none x0 x1 p q)

/-- The block indices at point `t` of the 25: the left operand's and the result's row block is block `t`, their
    one column block is block 0, and the right operand's only block is block `(0, 0)` at every point. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry `(p, k)` of the left operand's block at point `t` is entry `(2048 t + p, k)` of the left array. -/
theorem rowBlock1_apply (c : Dev nD) (t : Fin cfg1.N) (p : Fin 2048) (k : Fin 128) (i : S51200x128.Idx)
    (hi0 : (i 0).val = t.val * 2048 + p.val) (hi1 : (i 1).val = k.val) :
    (iblk1 V c 0 t : Vec Ideal S2048x128 .f32) (ix2 p k) = (V c main_v47 : S51200x128.Idx → EReal) i := by
  obtain ⟨e0, e1, -, -, -, -⟩ := blockIndex1 t
  unfold iblk1
  rw [View.read_apply]
  show V c main_v47 _ = V c main_v47 _
  refine congrArg _ ?_
  funext a
  apply Fin.ext
  match a with
  | ⟨0, _⟩ => show win1_0.index t (0 : Fin 2) * 2048 + 1 * (p : Nat) = (i 0).val; rw [e0, hi0]; omega
  | ⟨1, _⟩ => show win1_0.index t (1 : Fin 2) * 128 + 1 * (k : Nat) = (i 1).val; rw [e1, hi1]; omega

/-- The right operand's block at every point is the whole right array: entry `(k, q)` is entry `(k, q)`. -/
theorem wholeBlock1_apply (c : Dev nD) (t : Fin cfg1.N) (k : Fin 128) (q : Fin 128) (i : S128x128.Idx)
    (hi0 : (i 0).val = k.val) (hi1 : (i 1).val = q.val) :
    (iblk1 V c 1 t : Vec Ideal S128x128 .f32) (ix2 k q) = (V c main_arg4 : S128x128.Idx → EReal) i := by
  obtain ⟨-, -, e2, e3, -, -⟩ := blockIndex1 t
  unfold iblk1
  rw [View.read_apply]
  show V c main_arg4 _ = V c main_arg4 _
  refine congrArg _ ?_
  funext a
  apply Fin.ext
  match a with
  | ⟨0, _⟩ => show win1_1.index t (0 : Fin 2) * 128 + 1 * (k : Nat) = (i 0).val; rw [e2, hi0]; omega
  | ⟨1, _⟩ => show win1_1.index t (1 : Fin 2) * 128 + 1 * (q : Nat) = (i 1).val; rw [e3, hi1]; omega

/-- What point `t` writes back is rows `2048 t … 2048 t + 2047` of the product: entry `(p, q)` of the stored block is
    `∑ k, A (2048 t + p, k) * W (k, q)`, which is the product's entry at the place `(2048 t + p, q)` the block's
    entry `(p, q)` has in the result array. -/
theorem flushed1_eq (c : Dev nD) (t : Fin cfg1.N) :
    (dat1 (F := Ideal) V c).flushed 2 t
      = ((cfg1.win 2).blk t).view.read (Elt Ideal) (Cert.PaddedProduct.product (V c main_v47) (V c main_arg4)) := by
  show (cfg1.win 2).cut (grid1.coords t) ((dat1 (F := Ideal) V c).after 2 t) = _
  rw [after1_2]
  unfold out1_2
  rw [View.canon_unit_zero zero_offsets]
  simp only [View.ld_unit_zero (S := S2048x128) zero_offsets, View.ld_unit_zero (S := S128x128) zero_offsets]
  obtain ⟨-, -, -, -, e4, e5⟩ := blockIndex1 t
  funext j
  obtain ⟨p, q, rfl⟩ : ∃ (p : Fin 2048) (q : Fin 128), j = ix2 p q := ⟨j 0, j 1, eq_ix2 j⟩
  show k1_pay1 (iblk1 V c 0 t) (iblk1 V c 1 t) (ix2 p q)
    = Cert.PaddedProduct.product (V c main_v47) (V c main_arg4) (((cfg1.win 2).blk t).view.emb (ix2 p q))
  refine (pay1_apply (iblk1 V c 0 t) (iblk1 V c 1 t) p q).trans ?_
  unfold Cert.PaddedProduct.product
  refine Finset.sum_congr rfl fun k _ => ?_
  have h0 : (iblk1 V c 0 t : Vec Ideal S2048x128 .f32) (ix2 p k)
      = (V c main_v47 : S51200x128.Idx → EReal) (ix2 (((cfg1.win 2).blk t).view.emb (ix2 p q) 0) k) :=
    rowBlock1_apply V c t p k _
      (by show win1_2.index t (0 : Fin 2) * 2048 + 1 * (p : Nat) = _; rw [e4]; omega) rfl
  have h1 : (iblk1 V c 1 t : Vec Ideal S128x128 .f32) (ix2 k q)
      = (V c main_arg4 : S128x128.Idx → EReal) (ix2 k (((cfg1.win 2).blk t).view.emb (ix2 p q) 1)) :=
    wholeBlock1_apply V c t k q _ rfl
      (by show win1_2.index t (1 : Fin 2) * 128 + 1 * (q : Nat) = _; rw [e5]; omega)
  rw [h0, h1]

/-- An index of the result array is in point `t`'s block iff each coordinate is in the block's range on its axis. -/
theorem mem_rowBlock1 (t : Fin cfg1.N) (i : S51200x128.Idx) :
    i ∈ ((cfg1.win 2).blk t).view.set ↔ ∀ a : Fin 2, win1_2.index t a * S2048x128.size a ≤ (i a).val
      ∧ (i a).val < win1_2.index t a * S2048x128.size a + S2048x128.size a := by
  show i ∈ ((View.whole main_v48).slice (win1_2.rect t)).set ↔ _
  rw [View.set_slice_whole, Rect.mem_set_unit]
  exact Iff.rfl

/-- The 25 row blocks of 2048 rows tile the 51200 rows: the index `(r, j)` is in the block of point `r / 2048`,
    and every point writes its block back. -/
theorem covered1 (i : S51200x128.Idx) :
    ∃ t : Fin cfg1.N, (cfg1.win 2).flush t = true ∧ i ∈ ((cfg1.win 2).blk t).view.set := by
  have hi0 : (i 0).val < 51200 := (i 0).isLt
  have hi1 : (i 1).val < 128 := (i 1).isLt
  obtain ⟨t, ht⟩ : ∃ t : Fin cfg1.N, t.val = (i 0).val / 2048 :=
    ⟨⟨(i 0).val / 2048, by show (i 0).val / 2048 < grid1.N; rw [N_1]; omega⟩, rfl⟩
  obtain ⟨-, -, -, -, e4, e5⟩ := blockIndex1 t
  refine ⟨t, flush1_2 t, ?_⟩
  rw [mem_rowBlock1]
  intro a
  match a with
  | ⟨0, _⟩ =>
    show win1_2.index t (0 : Fin 2) * 2048 ≤ (i 0).val ∧ (i 0).val < win1_2.index t (0 : Fin 2) * 2048 + 2048
    rw [e4, ht]; omega
  | ⟨1, _⟩ =>
    show win1_2.index t (1 : Fin 2) * 128 ≤ (i 1).val ∧ (i 1).val < win1_2.index t (1 : Fin 2) * 128 + 128
    rw [e5]; omega

/-- After the 25 points the result array of region 1 is the product `main_v47 ⬝ main_arg4`, entry by entry: every point
    writes its rows of the product and the rows of the 25 points are all the rows. -/
theorem region1_array (c : Dev nD) :
    (dat1 (F := Ideal) V c).arrAt 2 cfg1.N = Cert.PaddedProduct.product (V c main_v47) (V c main_arg4) :=
  (dat1 (F := Ideal) V c).arrAt_eq_of_cover 2 (Cert.PaddedProduct.product (V c main_v47) (V c main_arg4))
    (fun t _ => flushed1_eq V c t) covered1

end Cert.KernelIdeal.RegionValue
end
-- ==== Proof.lean ====
/-
  A two-layer graph convolution: equivalence of a kernel and its reference on the extended reals.

  Both programs compute, for node features `x` (50000 × 128), an edge index (2 × 800000) and two layers of weights
  and biases, `conv(relu(conv(x, W1, b1)), W2, b2)`, where `conv(h, W, b)` multiplies `h` by `W`, gathers the
  product's rows at each edge's source (self-loops appended), scales each by the edge's weight — the product of the
  inverse square-root degrees of its two ends —, sums them at the edge's destination and adds `b`. The two programs
  differ in one place, twice: where the reference multiplies `h` by `W` in one contraction, the kernel appends 1200
  rows to `h`, multiplies the 51200 rows by `W` in 25 blocks of 2048 rows on the matrix unit (its operands first
  changed to a shorter float format, which on the extended reals changes nothing), and keeps the first 50000 rows.
  Row `r` of a product depends on row `r` of the left factor alone, so the rows kept are the reference's product,
  entry by entry the same finite sum of the same products; no appended entry is read and nothing needs to be finite.
  Every other operation is the same operation on the same operands in both programs, so the results agree.

  The kernel's run is followed boundary by boundary through its host operations and its two regions
  (`Proof/KernelRun.lean`, `Proof/KernelFold.lean`); each region's output array is the padded product
  (`Proof/RegionValue.lean` over `Proof/PaddedProduct.lean`); the kept rows are the host's product
  (`Proof/RowsOfPaddedProduct.lean`). The idealization rewrote no operation, so that claim is trivial, and the three
  frame claims are the programs' runs with the results dropped.
-/
import proofs.«145094_j47777216200968_1_alg».proof.Defs
import proofs.«145094_j47777216200968_1_alg».proof.Proof.Gen.Kernel
import proofs.«145094_j47777216200968_1_alg».proof.Proof.Gen.Kernel.Skeleton
import proofs.«145094_j47777216200968_1_alg».proof.Proof.Gen.Kernel.Launch
import proofs.«145094_j47777216200968_1_alg».proof.Proof.Gen.Kernel.Points
import proofs.«145094_j47777216200968_1_alg».proof.Proof.Gen.Kernel.Frame
import proofs.«145094_j47777216200968_1_alg».proof.Proof.Gen.KernelIdeal
import proofs.«145094_j47777216200968_1_alg».proof.Proof.Gen.KernelIdeal.Skeleton
import proofs.«145094_j47777216200968_1_alg».proof.Proof.Gen.KernelIdeal.Launch
import proofs.«145094_j47777216200968_1_alg».proof.Proof.Gen.KernelIdeal.Points
import proofs.«145094_j47777216200968_1_alg».proof.Proof.Gen.KernelIdeal.Frame
import proofs.«145094_j47777216200968_1_alg».proof.Proof.Gen.ReferenceIdeal
import proofs.«145094_j47777216200968_1_alg».proof.Proof.Gen.ReferenceIdeal.Run
import proofs.«145094_j47777216200968_1_alg».proof.Proof.Gen.ReferenceIdeal.Read
import proofs.«145094_j47777216200968_1_alg».proof.Proof.Gen.Pre_finite_inputs
import proofs.«145094_j47777216200968_1_alg».proof.Proof.KernelRun
import proofs.«145094_j47777216200968_1_alg».proof.Proof.KernelFold
import proofs.«145094_j47777216200968_1_alg».proof.Proof.RegionValue
import Idealize.ShloMosaic.Adequacy
import Idealize.ShloMosaic.Init

noncomputable section

namespace Cert.Proof

open Idealize.ShloMosaic Idealize.SL.Sem

/-- The kernel as printed runs, and its arguments end unchanged. -/
theorem frame_kernel : Cert.frame_Kernel := fun m ρ _ => Cert.Kernel.Gen.frame m ρ

/-- The idealized kernel runs, and its arguments end unchanged. -/
theorem frame_kernelIdeal : Cert.frame_KernelIdeal := fun m ρ _ => Cert.KernelIdeal.Gen.frame m ρ

/-- The idealized reference runs, and its arguments end unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories agreeing on the arguments, both programs end with the reference's last
    stage applied to the arguments: the kernel because its boundaries' contents are the reference's stages, the
    kept rows of each padded product being the host's product; the reference by its own run. -/
theorem algebraic : Cert.algebraic_KernelIdeal_ReferenceIdeal := by
  intro m ρ m' ρ' _ hagree
  refine ⟨fun c => Cert.ReferenceIdeal.Read.val_main_v61 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Fold.W9_result m ρ c
          Cert.KernelIdeal.RegionValue.region0_array Cert.KernelIdeal.RegionValue.region1_array), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v61_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
